-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel

variable [Facts]

def fn {F : FTy → Type} [FloatOps F] (main_arg0 : FVec F S16384x2048 .f32) (main_arg1 : FVec F S16384x2048 .f32) (main_arg2 : FVec F S16384x2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S16384x2048 .f32 := Host.absf main_arg1
  let main_cst_0 : FVec F S_ .f32 := constant S_ .f32 0x7F800000#32
  let main_v5 : FVec F S16384x2048 .f32 := broadcastInDim S16384x2048 ![] bcast_S_S16384x2048 main_cst_0
  let main_v6 : IVec S16384x2048 1 := cmpf .olt main_v4 main_v5
  let main_c_1 : IVec S_ 1 := constantI S_ 1 1#1
  let main_v7 : IVec S_ 1 := (fun x v => Host.reduce IntOp.andi x v reducesTo_S16384x2048_S_d0_1 h_S_) main_v6 main_c_1
  let main_v8 : IVec S_ 1 := andi main_v3 main_v7
  let main_v9 : FVec F S16384x2048 .f32 := Host.absf main_arg2
  let main_cst_2 : FVec F S_ .f32 := constant S_ .f32 0x7F800000#32
  let main_v10 : FVec F S16384x2048 .f32 := broadcastInDim S16384x2048 ![] bcast_S_S16384x2048 main_cst_2
  let main_v11 : IVec S16384x2048 1 := cmpf .olt main_v9 main_v10
  let main_c_3 : IVec S_ 1 := constantI S_ 1 1#1
  let main_v12 : IVec S_ 1 := (fun x v => Host.reduce IntOp.andi x v reducesTo_S16384x2048_S_d0_1 h_S_) main_v11 main_c_3
  let main_v13 : IVec S_ 1 := andi main_v8 main_v12
  main_v13
-- ==== Kernel.lean ====
abbrev S16384x2048 : Shape := ⟨2, ![16384, 2048]⟩
abbrev S16384 : Shape := ⟨1, ![16384]⟩
abbrev S256x2048 : Shape := ⟨2, ![256, 2048]⟩
abbrev S256 : Shape := ⟨1, ![256]⟩
abbrev S_ : Shape := ⟨0, ![]⟩

abbrev nBuf : Space → Nat
  | .hbm => 8
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S16384x2048, .f32⟩
  | .hbm, ⟨3, _⟩ => ⟨S16384, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256, .f32⟩
  | .local _ .vmem, ⟨7, _⟩ => ⟨S256, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S256x2048_S256x2048_0_0 : ∀ a, (![0, 0] : Fin 2 → Nat) a + S256x2048.size a ≤ S256x2048.size a
  h_S256x2048 : 0 < S256x2048.numel
  reduces_S256x2048_S256 : S256x2048.Reduces [1] S256
  inb_S256_S256_0 : ∀ a, (![0] : Fin 1 → Nat) a + S256.size a ≤ S256.size a
  h_S256 : 0 < S256.numel
  reducesTo_S16384_S_d0 : S16384.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S16384x2048.size a
  hwx0_0 : ∀ i : grid0.Coords, EltTy.bits .f32 = 32 ∨ (Rect.block (s := S16384x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S16384x2048.size a
  hwx0_1 : ∀ i : grid0.Coords, EltTy.bits .f32 = 32 ∨ (Rect.block (s := S16384x2048) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S16384x2048.size a
  hwx0_2 : ∀ i : grid0.Coords, EltTy.bits .f32 = 32 ∨ (Rect.block (s := S16384x2048) S256x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S16384.size a
  hwx0_3 : ∀ i : grid0.Coords, EltTy.bits .f32 = 32 ∨ (Rect.block (s := S16384) S256.size (cc0_transform_3 i) (hinb0_3 i)).WholeWords (EltTy.packing .f32)

variable [Facts₀]

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S_ : Shape := ⟨0, ![]⟩
abbrev S16384 : Shape := ⟨1, ![16384]⟩

abbrev nBuf : Space → Nat
  | .hbm => 23
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S16384x2048, .f32⟩
  | .hbm, ⟨3, _⟩ => ⟨S16384x2048, .f32⟩
  | .hbm, ⟨4, _⟩ => ⟨S16384x2048, .f32⟩
  | .hbm, ⟨5, _⟩ => ⟨S16384x2048, .f32⟩
  | .hbm, ⟨6, _⟩ => ⟨S_, .f32⟩
  | .hbm, ⟨7, _⟩ => ⟨S16384, .f32⟩
  | .hbm, ⟨8, _⟩ => ⟨S16384x2048, .f32⟩
  | .hbm, ⟨9, _⟩ => ⟨S_, .f32⟩
  | .hbm, ⟨10, _⟩ => ⟨S16384, .f32⟩
  | .hbm, ⟨11, _⟩ => ⟨S16384, .f32⟩
  | .hbm, ⟨12, _⟩ => ⟨S_, .f32⟩
  | .hbm, ⟨13, _⟩ => ⟨S16384, .f32⟩
  | .hbm, ⟨14, _⟩ => ⟨S16384, .f32⟩
  | .hbm, ⟨15, _⟩ => ⟨S_, .f32⟩
  | .hbm, ⟨16, _⟩ => ⟨S16384, .f32⟩
  | .hbm, ⟨17, _⟩ => ⟨S16384, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]

class Facts₀ : Prop where
  reducesTo_S16384x2048_S16384_d1 : S16384x2048.ReducesTo [1] S16384
  h_S_ : 0 < S_.numel
  bcast_S_S16384 : S_.BroadcastsInDim S16384 (![] : Fin 0 → Fin S16384.rank)
  reducesTo_S16384_S_d0 : S16384.ReducesTo [0] S_

variable [Facts₀]

class Facts : Prop extends Facts₀ where

variable [Facts]
-- ==== Proof.LossLaw.lean ====
/-
  The mathematics that joins the two programs, on the extended reals and free of either program.

  One row's value is  h · ((Q + L) + C)  with  Q = Σ_k (t_k − μ_k)² / σ_k,  L = Σ_k log σ_k,  h = −1/2  and  C  a real
  constant.  One program negates every row (as  0 − x) and then averages over the rows; the other averages the rows and
  negates the mean.  On the extended reals negation moves across a sum only when the summands are not  +∞  and  −∞  at
  once, so the two agree because NO row's value is  −∞  when the entries are real numbers:

    * if some σ_k = 0 then log σ_k = −∞, so L = −∞, so (Q + L) + C = −∞ and the row's value is (−1/2)·(−∞) = +∞;
    * otherwise every quotient is a real number, Q ≠ +∞, and L ≠ +∞ always (a logarithm of a real is a real or −∞),
      so (Q + L) + C ≠ +∞ and its product with −1/2 is not −∞.

  With no row at −∞:  Σ_b (0 − x_b) = −Σ_b x_b,  and dividing by the real 16384 commutes with negation.
-/
import Idealize.ShloMosaic.PureOps.Ideal
import Idealize.ShloMosaic.PureOps.Ideal.Laws

noncomputable section

namespace Cert.GaussianNll

open Idealize.ShloMosaic
open scoped BigOperators

/-! ## The three literal words -/

/-- The word `0xBF000000` denotes −1/2. -/
theorem half_word : Ideal.ofBits .f32 0xBF000000#32 = ((-(1 / 2) : ℝ) : EReal) := by
  simp [Ideal.ofBits, Ideal.ieee, -EReal.coe_mul]; norm_num

/-- The word `0x46800000` denotes 16384, the number of rows. -/
theorem count_word : Ideal.ofBits .f32 0x46800000#32 = ((16384 : ℝ) : EReal) := by
  simp [Ideal.ofBits, Ideal.ieee, -EReal.coe_mul]; norm_num

/-- The word `0x456B3F8E` (the f32 nearest to 2048·log 2π) denotes a real number. -/
theorem offset_word : Ideal.ofBits .f32 0x456B3F8E#32 = ((7708615 / 2048 : ℝ) : EReal) := by
  simp [Ideal.ofBits, Ideal.ieee, -EReal.coe_mul]; norm_num

/-! ## Sums on the extended reals -/

section Sums
variable {ι : Type*}

/-- A finite sum with a summand −∞ is −∞. -/
theorem sum_eq_bot (s : Finset ι) (f : ι → EReal) {i : ι} (hi : i ∈ s) (h : f i = ⊥) : ∑ j ∈ s, f j = ⊥ := by
  classical
  rw [← Finset.add_sum_erase s f hi, h, EReal.bot_add]

/-- A finite sum of summands none of which is +∞ is not +∞. -/
theorem sum_ne_top (s : Finset ι) (f : ι → EReal) (h : ∀ i ∈ s, f i ≠ ⊤) : ∑ j ∈ s, f j ≠ ⊤ := by
  classical
  induction s using Finset.induction_on with
  | empty => simp
  | insert a s ha ih =>
    rw [Finset.sum_insert ha]
    exact EReal.add_ne_top (h a (Finset.mem_insert_self a s)) (ih fun i hi => h i (Finset.mem_insert_of_mem hi))

/-- Negation moves across a finite sum none of whose summands is −∞ (and that sum is not −∞ either). -/
theorem sum_neg_of_ne_bot (s : Finset ι) (f : ι → EReal) (h : ∀ i ∈ s, f i ≠ ⊥) :
    ∑ j ∈ s, -f j = -∑ j ∈ s, f j ∧ ∑ j ∈ s, f j ≠ ⊥ := by
  classical
  induction s using Finset.induction_on with
  | empty => simp
  | insert a s ha ih =>
    obtain ⟨e, hb⟩ := ih fun i hi => h i (Finset.mem_insert_of_mem hi)
    have hfa : f a ≠ ⊥ := h a (Finset.mem_insert_self a s)
    rw [Finset.sum_insert ha, Finset.sum_insert ha, e, EReal.neg_add (Or.inl hfa) (Or.inr hb), sub_eq_add_neg]
    exact ⟨rfl, EReal.add_ne_bot_iff.mpr ⟨hfa, hb⟩⟩

end Sums

/-! ## One row -/

section Row
variable {κ : Type*} [Fintype κ]

/-- One row's value from its three rows of entries: −1/2 · ((Σ_k (t_k − μ_k)² / σ_k + Σ_k log σ_k) + C). -/
def rowValue (mu sg tg : κ → EReal) : EReal :=
  Ideal.ofBits .f32 0xBF000000#32
    * (((∑ k, Ideal.div ((tg k - mu k) * (tg k - mu k)) (sg k)) + ∑ k, Ideal.log (sg k))
        + Ideal.ofBits .f32 0x456B3F8E#32)

/-- The logarithm of a real number is not +∞. -/
theorem log_coe_ne_top (r : ℝ) : Ideal.log (r : EReal) ≠ ⊤ := by
  rw [Ideal.log_coe]; split
  · exact bot_ne_top
  · exact EReal.coe_ne_top _

/-- The quotient of a real square by a nonzero real is not +∞. -/
theorem quot_ne_top (t u s : ℝ) (hs : s ≠ 0) :
    Ideal.div (((t : EReal) - (u : EReal)) * ((t : EReal) - (u : EReal))) (s : EReal) ≠ ⊤ := by
  rw [Ideal.div_coe hs, ← EReal.coe_sub, ← EReal.coe_mul, ← EReal.coe_mul]
  exact EReal.coe_ne_top _

/-- A row of real entries has a value that is not −∞. -/
theorem rowValue_ne_bot (mu sg tg : κ → EReal) (hmu : ∀ k, ∃ r : ℝ, mu k = (r : EReal))
    (hsg : ∀ k, ∃ r : ℝ, sg k = (r : EReal)) (htg : ∀ k, ∃ r : ℝ, tg k = (r : EReal)) :
    rowValue mu sg tg ≠ ⊥ := by
  unfold rowValue
  -- the bracket is not +∞
  have hz : ((∑ k, Ideal.div ((tg k - mu k) * (tg k - mu k)) (sg k)) + ∑ k, Ideal.log (sg k))
      + Ideal.ofBits .f32 0x456B3F8E#32 ≠ ⊤ := by
    rw [offset_word]
    refine EReal.add_ne_top ?_ (EReal.coe_ne_top _)
    by_cases h0 : ∃ k, sg k = 0
    · obtain ⟨k, hk⟩ := h0
      have hl : ∑ k, Ideal.log (sg k) = ⊥ :=
        sum_eq_bot Finset.univ _ (Finset.mem_univ k) (by
          rw [hk, ← EReal.coe_zero, Ideal.log_coe, if_pos le_rfl])
      rw [hl, EReal.add_bot]
      exact bot_ne_top
    · have h0' : ∀ k, sg k ≠ 0 := fun k hk => h0 ⟨k, hk⟩
      refine EReal.add_ne_top (sum_ne_top _ _ fun k _ => ?_) (sum_ne_top _ _ fun k _ => ?_)
      · obtain ⟨u, hu⟩ := hmu k
        obtain ⟨s, hs⟩ := hsg k
        obtain ⟨t, ht⟩ := htg k
        have hs0 : s ≠ 0 := fun e => h0' k (by rw [hs, e, EReal.coe_zero])
        rw [hu, hs, ht]
        exact quot_ne_top t u s hs0
      · obtain ⟨s, hs⟩ := hsg k
        rw [hs]
        exact log_coe_ne_top s
  -- so its product with −1/2 is not −∞
  rw [half_word]
  generalize ((∑ k, Ideal.div ((tg k - mu k) * (tg k - mu k)) (sg k)) + ∑ k, Ideal.log (sg k))
      + Ideal.ofBits .f32 0x456B3F8E#32 = z at hz
  induction z using EReal.rec with
  | bot => rw [EReal.coe_mul_bot_of_neg (by norm_num)]; exact top_ne_bot
  | coe r => rw [← EReal.coe_mul]; exact EReal.coe_ne_bot _
  | top => exact absurd rfl hz

end Row

/-! ## The two losses -/

section Loss
variable {ι : Type*} [Fintype ι]

/-- Every row negated (as `0 − x`), summed from 0, and divided by the number of rows. -/
def meanOfNegated (x : ι → EReal) : EReal :=
  Ideal.div (Ideal.ofBits .f32 0x00000000#32 + ∑ b, (Ideal.ofBits .f32 0x00000000#32 - x b))
    (Ideal.ofBits .f32 0x46800000#32)

/-- The rows summed from 0, divided by the number of rows, and the mean negated. -/
def negatedMean (x : ι → EReal) : EReal :=
  -(Ideal.div (Ideal.ofBits .f32 0x00000000#32 + ∑ b, x b) (Ideal.ofBits .f32 0x46800000#32))

/-- The mean of the negated rows is the negated mean of the rows, when no row is −∞. -/
theorem meanOfNegated_eq_negatedMean (x : ι → EReal) (hx : ∀ b, x b ≠ ⊥) : meanOfNegated x = negatedMean x := by
  unfold meanOfNegated negatedMean
  rw [Ideal.ofBits_zero_f32, count_word, zero_add, zero_add,
    Ideal.div_coe (by norm_num : (16384 : ℝ) ≠ 0), Ideal.div_coe (by norm_num : (16384 : ℝ) ≠ 0)]
  simp only [zero_sub]
  rw [(sum_neg_of_ne_bot Finset.univ x fun b _ => hx b).1, neg_mul]

end Loss

/-! ## The arrays -/

/-- The shape of each of the three arguments, and of the vector of the rows' values. -/
abbrev Grid : Shape := ⟨2, ![16384, 2048]⟩
abbrev Rows : Shape := ⟨1, ![16384]⟩

/-- Row `b`, column `k` of a [16384, 2048] array. -/
abbrev cell (b : Rows.Idx) (k : Fin 2048) : Grid.Idx := fun a => match a with
  | ⟨0, _⟩ => ⟨(b 0).val, (b 0).isLt⟩
  | ⟨1, _⟩ => ⟨k.val, k.isLt⟩

/-- The rows' values of three [16384, 2048] arrays (means, variances, targets). -/
def rowValues (mu sg tg : Grid.Idx → EReal) : Rows.Idx → EReal := fun b =>
  rowValue (fun k : Fin 2048 => mu (cell b k)) (fun k => sg (cell b k)) (fun k => tg (cell b k))

/-- The rows' values, each negated as `0 − x`: the vector of per-row losses. -/
def negatedRows (mu sg tg : Grid.Idx → EReal) : Rows.Idx → EReal := fun b =>
  Ideal.ofBits .f32 0x00000000#32 - rowValues mu sg tg b

/-- The mean of the negated rows' values is the sum from 0 of the per-row losses divided by the number of rows. -/
theorem meanOfNegated_rows (mu sg tg : Grid.Idx → EReal) :
    meanOfNegated (rowValues mu sg tg)
      = Ideal.div (Ideal.ofBits .f32 0x00000000#32 + ∑ b, negatedRows mu sg tg b) (Ideal.ofBits .f32 0x46800000#32) := rfl

/-- For arrays of real entries the mean of the negated rows' values is the negated mean of the rows' values. -/
theorem losses_eq (mu sg tg : Grid.Idx → EReal) (hmu : ∀ i, ∃ r : ℝ, mu i = (r : EReal))
    (hsg : ∀ i, ∃ r : ℝ, sg i = (r : EReal)) (htg : ∀ i, ∃ r : ℝ, tg i = (r : EReal)) :
    meanOfNegated (rowValues mu sg tg) = negatedMean (rowValues mu sg tg) :=
  meanOfNegated_eq_negatedMean _ fun b =>
    rowValue_ne_bot _ _ _ (fun k => hmu (cell b k)) (fun k => hsg (cell b k)) (fun k => htg (cell b k))

end Cert.GaussianNll

end
-- ==== Proof.BlockValue.lean ====
/-
  What the kernel body stores, read at one row of its block.

  The body loads three [256, 2048] blocks (means, variances, targets) and stores a vector of 256 numbers.  Entry j of that
  vector is  0 − (−1/2)·((Σ_k (t_jk − μ_jk)² / σ_jk + Σ_k log σ_jk) + C):  the two lane sums are sums over the 2048
  columns of row j, and everything else is pointwise.  So entry j is `0 − rowValue` of row j of the three blocks.
-/
import proofs.«154448_j67250597921404_1_alg».proof.Proof.Gen.KernelIdeal.Skeleton
import proofs.«154448_j67250597921404_1_alg».proof.Proof.LossLaw
import Idealize.ShloMosaic.Lib.ValueIdx
import Idealize.ShloMosaic.PureOps.Ideal.Laws

noncomputable section

namespace Cert.GaussianNll.Kernel

open Idealize.ShloMosaic Idealize.ShloMosaic.ValueIdx Cert.KernelIdeal Cert.KernelIdeal.Gen

/-- Entry `j` of the stored vector is `0 − rowValue` of row `j` of the three loaded blocks (row `j`, column `k` of a
    block being the reduced index `j` with the column `k` put back). -/
theorem payload_apply (v0 v1 v2 : FVec Ideal S256x2048 .f32) (j : S256.Idx) :
    k0_pay1 (F := Ideal) v0 v1 v2 j
      = Ideal.ofBits .f32 0x00000000#32
          - rowValue (fun k : Fin 2048 => v0 (reduces_S256x2048_S256.lift j k))
              (fun k => v1 (reduces_S256x2048_S256.lift j k)) (fun k => v2 (reduces_S256x2048_S256.lift j k)) := by
  have hq := Ideal.multiReduction_add_single (φ := .f32) (divf (mulf (subf v2 v0) (subf v2 v0)) v1) 0x00000000#32
    reduces_S256x2048_S256 (.inl rfl) rfl j
  have hl := Ideal.multiReduction_add_single (φ := .f32) (log v1) 0x00000000#32
    reduces_S256x2048_S256 (.inl rfl) rfl j
  unfold k0_pay1 rowValue
  simp only [subf_apply, mulf_apply, addf_apply, broadcast_apply]
  rw [hq, hl]
  rfl

end Cert.GaussianNll.Kernel

end
-- ==== Proof.RowsArray.lean ====
/-
  The vector the region leaves: every row's loss.

  Grid point t works on rows 256·t … 256·t + 255: each input window's block at t is those rows of its array (all 2048
  columns), and the output window's block at t is entries 256·t … 256·t + 255 of the result vector.  What point t writes
  back is therefore block t of ONE function of the three argument arrays — row r ↦ 0 − (row r's value) — and the 64
  blocks tile the 16384 entries (entry r lies in block r / 256).  So after the region the vector holds that function.
-/
import proofs.«154448_j67250597921404_1_alg».proof.Proof.Gen.KernelIdeal.Frame
import proofs.«154448_j67250597921404_1_alg».proof.Proof.BlockValue
import Idealize.ShloMosaic.Lib.Pipeline.Value

noncomputable section

namespace Cert.GaussianNll.Kernel

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

theorem zero_offsets2 : (![0, 0] : Fin 2 → Nat) = fun _ => 0 := funext fun a => by fin_cases a <;> rfl
theorem zero_offsets1 : (![0] : Fin 1 → Nat) = fun _ => 0 := funext fun a => by fin_cases a <;> rfl

/-- The printed index maps, decided over the grid: at point t every window is at block row t (and block column 0). -/
theorem grid_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 1) = t.val :=
  (by decide +kernel : ∀ t : Fin grid0.N, _)

/-- Row `j`, column `k` of the means' block at point `t` is the means' array at row (entry `j` of the output block at
    `t`), column `k`. -/
theorem block0_apply (c : Dev nD) (t : Fin cfg0.N) (j : S256.Idx) (k : Fin 2048) :
    iblk m c 0 t (reduces_S256x2048_S256.lift j k)
      = V m c main_arg0 (cell (((cfg0.win 3).blk t).view.emb j) k) := by
  obtain ⟨e0, e1, e2, e3, e4, e5, e6⟩ := grid_facts t
  show V m c main_arg0 (((cfg0.win 0).blk t).view.emb (reduces_S256x2048_S256.lift j k)) = _
  refine congrArg (V m c main_arg0) ?_
  funext a; apply Fin.ext
  match a with
  | ⟨0, _⟩ => show win0_0.index t (0 : Fin 2) * 256 + 1 * (j 0).val = win0_3.index t (0 : Fin 1) * 256 + 1 * (j 0).val; omega
  | ⟨1, _⟩ => show win0_0.index t (1 : Fin 2) * 2048 + 1 * k.val = k.val; omega

/-- The same for the variances' block. -/
theorem block1_apply (c : Dev nD) (t : Fin cfg0.N) (j : S256.Idx) (k : Fin 2048) :
    iblk m c 1 t (reduces_S256x2048_S256.lift j k)
      = V m c main_arg1 (cell (((cfg0.win 3).blk t).view.emb j) k) := by
  obtain ⟨e0, e1, e2, e3, e4, e5, e6⟩ := grid_facts t
  show V m c main_arg1 (((cfg0.win 1).blk t).view.emb (reduces_S256x2048_S256.lift j k)) = _
  refine congrArg (V m c main_arg1) ?_
  funext a; apply Fin.ext
  match a with
  | ⟨0, _⟩ => show win0_1.index t (0 : Fin 2) * 256 + 1 * (j 0).val = win0_3.index t (0 : Fin 1) * 256 + 1 * (j 0).val; omega
  | ⟨1, _⟩ => show win0_1.index t (1 : Fin 2) * 2048 + 1 * k.val = k.val; omega

/-- The same for the targets' block. -/
theorem block2_apply (c : Dev nD) (t : Fin cfg0.N) (j : S256.Idx) (k : Fin 2048) :
    iblk m c 2 t (reduces_S256x2048_S256.lift j k)
      = V m c main_arg2 (cell (((cfg0.win 3).blk t).view.emb j) k) := by
  obtain ⟨e0, e1, e2, e3, e4, e5, e6⟩ := grid_facts t
  show V m c main_arg2 (((cfg0.win 2).blk t).view.emb (reduces_S256x2048_S256.lift j k)) = _
  refine congrArg (V m c main_arg2) ?_
  funext a; apply Fin.ext
  match a with
  | ⟨0, _⟩ => show win0_2.index t (0 : Fin 2) * 256 + 1 * (j 0).val = win0_3.index t (0 : Fin 1) * 256 + 1 * (j 0).val; omega
  | ⟨1, _⟩ => show win0_2.index t (1 : Fin 2) * 2048 + 1 * k.val = k.val; omega

/-- What point `t` writes back is block `t` of the per-row losses of the argument arrays. -/
theorem flushed_eq (c : Dev nD) (t : Fin cfg0.N) :
    (dats m 0 c).flushed 3 t
      = ((cfg0.win 3).blk t).view.read (Elt Ideal)
          (negatedRows (V m c main_arg0) (V m c main_arg1) (V m c main_arg2)) := by
  show (cfg0.win 3).cut (grid0.coords t) ((dats m 0 c).after 3 t) = _
  rw [after0_3]
  unfold out0_3
  rw [View.canon_unit_zero zero_offsets1]
  simp only [View.ld_unit_zero (S := S256x2048) zero_offsets2]
  funext j
  refine (payload_apply (iblk m c 0 t) (iblk m c 1 t) (iblk m c 2 t) j).trans ?_
  simp only [block0_apply, block1_apply, block2_apply]
  rfl

/-- Every entry of the vector lies in the block of the point its row belongs to. -/
theorem cover (i : S16384.Idx) :
    ∃ t : Fin cfg0.N, (cfg0.win 3).flush t = true ∧ i ∈ ((cfg0.win 3).blk t).view.set := by
  have hi : (i 0).val < 16384 := (i 0).isLt
  have hN : cfg0.N = 64 := N_0
  let t : Fin cfg0.N := ⟨(i 0).val / 256, by rw [hN]; omega⟩
  obtain ⟨e0, e1, e2, e3, e4, e5, e6⟩ := grid_facts t
  refine ⟨t, flush0_3 t, ?_⟩
  show i ∈ ((View.whole main_v0).slice (win0_3.rect t)).set
  rw [View.set_slice_whole, Rect.mem_set_unit]
  intro a
  match a with
  | ⟨0, _⟩ =>
    show win0_3.index t (0 : Fin 1) * 256 ≤ (i 0).val ∧ (i 0).val < win0_3.index t (0 : Fin 1) * 256 + 256
    have ht : t.val = (i 0).val / 256 := rfl
    omega

/-- After the region the result vector holds every row's loss. -/
theorem final (c : Dev nD) :
    (dats m 0 c).arrAt 3 cfg0.N = negatedRows (V m c main_arg0) (V m c main_arg1) (V m c main_arg2) :=
  (dats m 0 c).arrAt_eq_of_cover 3 _ (fun t _ => flushed_eq m c t) (cover)

end Cert.GaussianNll.Kernel

end
-- ==== Proof.KernelRun.lean ====
/-
  The kernel program's run, read: the result is the mean of the negated rows' values.

  After the region the result vector holds every row's loss (`final`); the four lines that follow sum it from 0 over its
  16384 entries and divide by 16384.  That is `meanOfNegated` of the rows' values of the three argument arrays, which
  the run leaves unchanged.
-/
import proofs.«154448_j67250597921404_1_alg».proof.Proof.RowsArray
import Idealize.ShloMosaic.Lib.StableHlo.Run

noncomputable section

namespace Cert.GaussianNll.Kernel

open Idealize.ShloMosaic Idealize.ShloMosaic.TcCoe Idealize.SL.Sem Idealize.ShloMosaic.StableHlo
open Idealize.ShloMosaic.Pipeline (Dat)
open Cert.KernelIdeal Cert.KernelIdeal.Gen

variable (m : (ℓ : Loc nD τ sig) → Buf (Elt Ideal) ℓ) (ρ : Dev nD → PrngReg)

/-- The result buffer after the lines that follow the region: the sum from 0 of the per-row losses, divided by the
    number of rows. -/
theorem tail_eq (c : Dev nD) :
    Pipeline.afterTail₀ cfgs (dats m) 0 (V0 m) [hostOps1] c main_v2
      = fun _ => meanOfNegated (rowValues (V m c main_arg0) (V m c main_arg1) (V m c main_arg2)) := by
  unfold Pipeline.afterTail₀
  show StableHlo.after hostOps1 _ (Proc.devRef .tc main_v2) = _
  after_results
  have hw : Pipeline.withArrays (cfgs 0).spec c (V0 m c) (fun w => (dats m 0 c).arrAt w (cfgs 0).N)
      (Proc.devRef .tc main_v0) = negatedRows (V m c main_arg0) (V m c main_arg1) (V m c main_arg2) :=
    (Pipeline.withArrays_arr spec0 launch0.win.arr_inj c _ _ 3).trans (final m c)
  rw [hw]
  funext i
  rw [meanOfNegated_rows]
  refine congrArg (fun z => Ideal.div z (Ideal.ofBits .f32 0x46800000#32)) ?_
  simp only [Host.reduceAdd, Ideal.hostReduceAdd_def]
  exact Ideal.hostReduceAdd_total reducesTo_S16384_S_d0 (fun b => b.elim0) _ _ i

/-- Every weakly fair execution of the kernel program terminates with the result at the mean of the negated rows'
    values of the argument arrays, and the arguments unchanged. -/
theorem run : θ_run defs (onTc (τ := τ) (main (F := Ideal))) ⟨m, fun _ => 0, ρ⟩ fun r => ∀ c : Dev nD,
      r.2.mem ((c.tc : Thread nD τ).loc main_v2)
        = (fun _ => meanOfNegated (rowValues (m ((c.tc : Thread nD τ).loc main_arg0))
            (m ((c.tc : Thread nD τ).loc main_arg1)) (m ((c.tc : Thread nD τ).loc main_arg2))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v2 (Pipeline.mem_restRefs_of main_v2 rfl (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.GaussianNll.Kernel

end
-- ==== Proof.ReferenceLoss.lean ====
/-
  The reference program's result as the negated mean of the rows' values.

  Read one operation at a time, the reference computes for row b the two sums over the 2048 columns
  (each from the initial value 0), adds them and the constant, multiplies by −1/2; then sums the 16384 rows from 0,
  divides by 16384 and negates.  That is `negatedMean` of `rowValues` of the three arguments.
-/
import proofs.«154448_j67250597921404_1_alg».proof.Proof.Gen.ReferenceIdeal.Read
import proofs.«154448_j67250597921404_1_alg».proof.Proof.LossLaw

noncomputable section

namespace Cert.GaussianNll.Reference

open Idealize.ShloMosaic Cert.ReferenceIdeal Cert.ReferenceIdeal.Gen Cert.ReferenceIdeal.Read

/-- Row `b`'s value, as the reference's tenth operation holds it. -/
theorem row_eq (x0 x1 x2 : (⟨S16384x2048, .f32⟩ : BufTy).Contents (Elt Ideal)) (b : S16384.Idx) :
    val_main_v10 (F := Ideal) x0 x1 x2 b = rowValues x0 x1 x2 b := by
  rw [val_main_v10_apply, val_main_v9_apply, val_main_cst_2_apply, val_main_v8_apply, val_main_v7_apply,
    val_main_cst_1_apply, val_main_v6_apply, val_main_v3_apply, val_main_v5_apply, val_main_cst_apply,
    val_main_cst_0_apply]
  simp only [val_main_v2_apply, val_main_v1_apply, val_main_v0_apply, val_main_v4_apply, Ideal.ofBits_def,
    Ideal.addf_def, Ideal.subf_def, Ideal.mulf_def, Ideal.hostDivf_def, Ideal.hostUnary_log_def,
    Ideal.ofBits_zero_f32, zero_add]
  rfl

/-- The reference's result is the negated mean of the rows' values. -/
theorem result_eq (x0 x1 x2 : (⟨S16384x2048, .f32⟩ : BufTy).Contents (Elt Ideal)) (i : S_.Idx) :
    val_main_v13 (F := Ideal) x0 x1 x2 i = negatedMean (rowValues x0 x1 x2) := by
  rw [val_main_v13_apply, val_main_v12_apply, val_main_v11_apply, val_main_cst_4_apply, val_main_cst_3_apply]
  simp only [Ideal.hostNegf_def, Ideal.negf_def, Ideal.hostDivf_def, Ideal.ofBits_def, row_eq]
  rfl

end Cert.GaussianNll.Reference

end
-- ==== Proof.LibFiniteEReal.lean ====
/-
  Two facts about real numbers among the extended reals.

  * An extended real whose absolute value (`max x (-x)`) compares below the word of `+∞` is a real number: the test
    an "every input is finite" precondition makes of each element, read back.
  * For a real `r` and ANY extended real `s`, `r + (s - r) = s`: subtracting a finite number and adding it back is
    the identity even at `s = ±∞` (it is not when `r` is infinite).
-/
import Idealize.ShloMosaic.PureOps.Ideal

noncomputable section

namespace Cert.Lib.FiniteEReal

open Idealize.ShloMosaic

/-- The 32-bit word `0x7F800000` denotes `+∞`. -/
theorem inf_word : Ideal.ofBits .f32 0x7F800000#32 = (⊤ : EReal) := by simp [Ideal.ofBits, Ideal.ieee]

/-- An extended real whose absolute value is (ordered-)below the word of `+∞` is a real number. -/
theorem real_of_abs_lt (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have h1 : Ideal.cmp .olt (max x (-x)) (Ideal.ofBits .f32 0x7F800000#32) = 1#1 := h
  rw [inf_word] at h1
  have h2 : max x (-x) < (⊤ : EReal) := by
    by_contra hn
    have : Ideal.cmp .olt (max x (-x)) ⊤ = 0#1 := by
      unfold Ideal.cmp
      rw [decide_eq_false hn]; rfl
    rw [this] at h1
    exact absurd h1 (by decide)
  induction x using EReal.rec with
  | bot => exact absurd h2 (by simp)
  | coe r => exact ⟨r, rfl⟩
  | top => exact absurd h2 (by simp)

/-- Adding back what was subtracted: for a real `r` and any extended real `s`, `r + (s - r) = s`. (At `s = ±∞` both
    sides are that infinity, because `r` is finite; at a real `s` it is the identity of the reals.) -/
theorem add_sub_cancel_real (r : ℝ) (s : EReal) : (r : EReal) + (s - (r : EReal)) = s := by
  induction s using EReal.rec with
  | bot => rw [EReal.bot_sub, EReal.add_bot]
  | coe v => rw [← EReal.coe_sub, ← EReal.coe_add]; exact congrArg _ (by ring)
  | top => rw [EReal.top_sub_coe, EReal.coe_add_top]

end Cert.Lib.FiniteEReal

end
-- ==== Proof.FiniteInputs.lean ====
/-
  The precondition read back: every entry of the three arguments is a real number.

  The precondition is the conjunction, over the three arrays, of "every entry's absolute value is below +∞".  Each
  conjunct is an `and`-reduction over all entries that came out 1, so every entry passed its test, and an extended
  real whose absolute value is below +∞ is a real number.
-/
import proofs.«154448_j67250597921404_1_alg».proof.Pre_finite_inputs
import proofs.«154448_j67250597921404_1_alg».proof.Proof.LibFiniteEReal
import Idealize.ShloMosaic.Lib.ReduceAll
import Idealize.ShloMosaic.Lib.ValueIdx

noncomputable section

namespace Cert.GaussianNll.Finite

open Idealize.ShloMosaic Cert.Pre_finite_inputs

variable [Cert.Pre_finite_inputs.Facts]

/-- A rank-0 array has one index. -/
instance : Subsingleton S_.Idx := ⟨fun a b => funext fun d => d.elim0⟩

/-- Under the precondition every entry of each argument is a real number. -/
theorem real_entries (x0 x1 x2 : FVec Ideal S16384x2048 .f32)
    (h : fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  have h0 := congrFun h ValueIdx.ix0
  dsimp only [fn] at h0
  obtain ⟨h01, h2⟩ := IntOp.andi_eq_one.1 h0
  obtain ⟨h0', h1⟩ := IntOp.andi_eq_one.1 h01
  exact ⟨fun i => Cert.Lib.FiniteEReal.real_of_abs_lt (x0 i) (Host.reduce_andi_all _ _ _ _ _ h0' i),
    fun i => Cert.Lib.FiniteEReal.real_of_abs_lt (x1 i) (Host.reduce_andi_all _ _ _ _ _ h1 i),
    fun i => Cert.Lib.FiniteEReal.real_of_abs_lt (x2 i) (Host.reduce_andi_all _ _ _ _ _ h2 i)⟩

end Cert.GaussianNll.Finite

end
-- ==== Proof.lean ====
/-
  The Gaussian negative log-likelihood with diagonal covariance, averaged over 16384 rows of 2048 columns.

  For row b let  x_b = −1/2 · ((Σ_k (t_bk − μ_bk)² / σ_bk + Σ_k log σ_bk) + C).  The kernel program computes every row's
  loss 0 − x_b in a grid of 64 blocks of 256 rows, then sums the 16384 losses from 0 and divides by 16384; the reference
  program computes the x_b, sums them from 0, divides by 16384 and negates.  On the extended reals the two results are
  equal because, the entries being real numbers (the precondition), no x_b is −∞: a zero variance sends its row's
  bracket to −∞ and the row to +∞, never to −∞ (Proof/LossLaw.lean), so negation moves across the sum.

  The kernel's run is read off its frame run: what each grid point writes back is its block of the per-row losses
  (Proof/BlockValue.lean, Proof/RowsArray.lean) and the lines after the region average them (Proof/KernelRun.lean).  The
  reference's run is read one operation at a time (Proof/ReferenceLoss.lean).  The precondition gives real entries
  (Proof/FiniteInputs.lean).  The idealized kernel is the kernel's own text read on the extended reals (no rewrite), and
  each frame is the program's run with the results forgotten.
-/
import proofs.«154448_j67250597921404_1_alg».proof.Defs
import proofs.«154448_j67250597921404_1_alg».proof.Proof.Gen.Kernel
import proofs.«154448_j67250597921404_1_alg».proof.Proof.Gen.Kernel.Frame
import proofs.«154448_j67250597921404_1_alg».proof.Proof.Gen.KernelIdeal
import proofs.«154448_j67250597921404_1_alg».proof.Proof.Gen.KernelIdeal.Frame
import proofs.«154448_j67250597921404_1_alg».proof.Proof.Gen.ReferenceIdeal
import proofs.«154448_j67250597921404_1_alg».proof.Proof.Gen.Pre_finite_inputs
import proofs.«154448_j67250597921404_1_alg».proof.Proof.Gen.ReferenceIdeal.Run
import proofs.«154448_j67250597921404_1_alg».proof.Proof.Gen.ReferenceIdeal.Read
import proofs.«154448_j67250597921404_1_alg».proof.Proof.KernelRun
import proofs.«154448_j67250597921404_1_alg».proof.Proof.ReferenceLoss
import proofs.«154448_j67250597921404_1_alg».proof.Proof.FiniteInputs
import Idealize.ShloMosaic.Adequacy
import Idealize.ShloMosaic.Init

noncomputable section

namespace Cert.Proof

open Idealize.ShloMosaic Idealize.ShloMosaic.TcCoe Idealize.SL.Sem

/-- The kernel program runs and leaves its arguments as they were. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- So does the reference: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten to read the kernel on the extended reals. -/
theorem preserves : Cert.preserves_Kernel_KernelIdeal := trivial

/-- From memories that agree on the three arguments, the kernel program ends at the mean of the negated rows' values
    and the reference at the negated mean of the rows' values; the entries are real numbers, so the two are equal. -/
theorem algebraic : Cert.algebraic_KernelIdeal_ReferenceIdeal := by
  intro m ρ m' ρ' hpre hagree
  refine ⟨_, Cert.GaussianNll.Kernel.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v13_eq]
  funext i
  rw [Cert.GaussianNll.Reference.result_eq]
  obtain ⟨h0, h1, h2⟩ := Cert.GaussianNll.Finite.real_entries _ _ _ (hpre c)
  exact (Cert.GaussianNll.losses_eq _ _ _ h0 h1 h2).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
